-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S8192x32 : Shape := ⟨2, ![8192, 32]⟩
abbrev S32 : Shape := ⟨1, ![32]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S256x8192 .f32) (main_arg1 : FVec F S8192x32 .f32) (main_arg2 : FVec F S32 .f32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S256x8192 : Shape := ⟨2, ![256, 8192]⟩
abbrev S8192x32 : Shape := ⟨2, ![8192, 32]⟩
abbrev S32 : Shape := ⟨1, ![32]⟩
abbrev S256x512x16 : Shape := ⟨3, ![256, 512, 16]⟩
abbrev S512x16x32 : Shape := ⟨3, ![512, 16, 32]⟩
abbrev S256x32 : Shape := ⟨2, ![256, 32]⟩
abbrev S128x64x16 : Shape := ⟨3, ![128, 64, 16]⟩
abbrev S64x16x32 : Shape := ⟨3, ![64, 16, 32]⟩
abbrev S128x32 : Shape := ⟨2, ![128, 32]⟩
abbrev S128x16x32 : Shape := ⟨3, ![128, 16, 32]⟩
abbrev S128x64x16x1 : Shape := ⟨4, ![128, 64, 16, 1]⟩
abbrev S1x64x16x32 : Shape := ⟨4, ![1, 64, 16, 32]⟩
abbrev S128x64x16x32 : Shape := ⟨4, ![128, 64, 16, 32]⟩
abbrev S1x32 : Shape := ⟨2, ![1, 32]⟩

abbrev nBuf : Space → Nat
  | .hbm => 6
  | .vmem => 8
  | .smem => 0
  | _ => 0

abbrev bufTy : (tb : Table) → Fin (tcTables nBuf tb) → BufTy
  | .hbm, ⟨0, _⟩ => ⟨S256x8192, .f32⟩
  | .hbm, ⟨1, _⟩ => ⟨S8192x32, .f32⟩
  | .hbm, ⟨2, _⟩ => ⟨S32, .f32⟩
  | .hbm, ⟨3, _⟩ => ⟨S256x512x16, .f32⟩
  | .hbm, ⟨4, _⟩ => ⟨S512x16x32, .f32⟩
  | .hbm, ⟨5, _⟩ => ⟨S256x32, .f32⟩
  | .local _ .vmem, ⟨0, _⟩ => ⟨S128x64x16, .f32⟩
  | .local _ .vmem, ⟨1, _⟩ => ⟨S128x64x16, .f32⟩
  | .local _ .vmem, ⟨2, _⟩ => ⟨S64x16x32, .f32⟩
  | .local _ .vmem, ⟨3, _⟩ => ⟨S64x16x32, .f32⟩
  | .local _ .vmem, ⟨4, _⟩ => ⟨S32, .f32⟩
  | .local _ .vmem, ⟨5, _⟩ => ⟨S128x32, .f32⟩
  | .local _ .vmem, ⟨6, _⟩ => ⟨S128x32, .f32⟩
  | .local _ .vmem, ⟨7, _⟩ => ⟨S128x16x32, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_12 : BitVec 32 := 0#32
  let v20 : BitVec 1 := Scalar.cmpi .ne v19 c0_i32_12
  v20

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x16x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S256x8192_S256x512x16 : S256x8192.ShapeCasts S256x512x16
  shapeCasts_S8192x32_S512x16x32 : S8192x32.ShapeCasts S512x16x32
  inb_S128x16x32_S128x16x32_0_0_0 : ∀ a, (![0, 0, 0] : Fin 3 → Nat) a + S128x16x32.size a ≤ S128x16x32.size a
  h_S128x16x32 : 0 < S128x16x32.numel
  shapeCasts_S128x16x32_S128x16x32 : S128x16x32.ShapeCasts S128x16x32
  inb_S128x64x16_S128x64x16_0_0_0 : ∀ a, (![0, 0, 0] : Fin 3 → Nat) a + S128x64x16.size a ≤ S128x64x16.size a
  h_S128x64x16 : 0 < S128x64x16.numel
  shapeCasts_S128x64x16_S128x64x16 : S128x64x16.ShapeCasts S128x64x16
  inb_S64x16x32_S64x16x32_0_0_0 : ∀ a, (![0, 0, 0] : Fin 3 → Nat) a + S64x16x32.size a ≤ S64x16x32.size a
  h_S64x16x32 : 0 < S64x16x32.numel
  shapeCasts_S64x16x32_S64x16x32 : S64x16x32.ShapeCasts S64x16x32
  shapeCasts_S128x64x16_S128x64x16x1 : S128x64x16.ShapeCasts S128x64x16x1
  shapeCasts_S64x16x32_S1x64x16x32 : S64x16x32.ShapeCasts S1x64x16x32
  broadcasts_S128x64x16x1_S128x64x16x32 : S128x64x16x1.Broadcasts S128x64x16x32
  broadcasts_S1x64x16x32_S128x64x16x32 : S1x64x16x32.Broadcasts S128x64x16x32
  reduces_S128x64x16x32_S128x16x32 : S128x64x16x32.Reduces [1] S128x16x32
  reduces_S128x16x32_S128x32 : S128x16x32.Reduces [1] S128x32
  inb_S32_S32_0 : ∀ a, (![0] : Fin 1 → Nat) a + S32.size a ≤ S32.size a
  h_S32 : 0 < S32.numel
  shapeCasts_S32_S1x32 : S32.ShapeCasts S1x32
  broadcasts_S1x32_S128x32 : S1x32.Broadcasts S128x32
  inb_S128x32_S128x32_0_0 : ∀ a, (![0, 0] : Fin 2 → Nat) a + S128x32.size a ≤ S128x32.size a
  h_S128x32 : 0 < S128x32.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x16.size a ≤ S256x512x16.size a
  hwx0_0 : ∀ i : grid0.Coords, EltTy.bits .f32 = 32 ∨ (Rect.block (s := S256x512x16) S128x64x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16x32.size a ≤ S512x16x32.size a
  hwx0_1 : ∀ i : grid0.Coords, EltTy.bits .f32 = 32 ∨ (Rect.block (s := S512x16x32) S64x16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S256x32.size a
  hwx0_3 : ∀ i : grid0.Coords, EltTy.bits .f32 = 32 ∨ (Rect.block (s := S256x32) S128x32.size (cc0_transform_3 i) (hinb0_3 i)).WholeWords (EltTy.packing .f32)

variable [Facts₀]

abbrev win0_0 : Pipeline.Window sig grid0 :=
  Pipeline.Window.ofSpec (Memref.whole main_v0) S128x64x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x16x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x8192 : Shape := ⟨2, ![256, 8192]⟩
abbrev S8192x32 : Shape := ⟨2, ![8192, 32]⟩
abbrev S32 : Shape := ⟨1, ![32]⟩
abbrev S256x512x16 : Shape := ⟨3, ![256, 512, 16]⟩
abbrev S512x16x32 : Shape := ⟨3, ![512, 16, 32]⟩
abbrev S256x512x16x1 : Shape := ⟨4, ![256, 512, 16, 1]⟩
abbrev S1x512x16x32 : Shape := ⟨4, ![1, 512, 16, 32]⟩
abbrev S256x512x16x32 : Shape := ⟨4, ![256, 512, 16, 32]⟩
abbrev S_ : Shape := ⟨0, ![]⟩
abbrev S256x16x32 : Shape := ⟨3, ![256, 16, 32]⟩
abbrev S256x32 : Shape := ⟨2, ![256, 32]⟩
abbrev S1x32 : Shape := ⟨2, ![1, 32]⟩

abbrev nBuf : Space → Nat
  | .hbm => 20
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S8192x32, .f32⟩
  | .hbm, ⟨2, _⟩ => ⟨S32, .f32⟩
  | .hbm, ⟨3, _⟩ => ⟨S256x512x16, .f32⟩
  | .hbm, ⟨4, _⟩ => ⟨S512x16x32, .f32⟩
  | .hbm, ⟨5, _⟩ => ⟨S256x512x16x1, .f32⟩
  | .hbm, ⟨6, _⟩ => ⟨S1x512x16x32, .f32⟩
  | .hbm, ⟨7, _⟩ => ⟨S256x512x16x32, .f32⟩
  | .hbm, ⟨8, _⟩ => ⟨S256x512x16x32, .f32⟩
  | .hbm, ⟨9, _⟩ => ⟨S256x512x16x32, .f32⟩
  | .hbm, ⟨10, _⟩ => ⟨S_, .f32⟩
  | .hbm, ⟨11, _⟩ => ⟨S256x16x32, .f32⟩
  | .hbm, ⟨12, _⟩ => ⟨S_, .f32⟩
  | .hbm, ⟨13, _⟩ => ⟨S256x32, .f32⟩
  | .hbm, ⟨14, _⟩ => ⟨S1x32, .f32⟩
  | .hbm, ⟨15, _⟩ => ⟨S256x32, .f32⟩
  | .hbm, ⟨16, _⟩ => ⟨S256x32, .f32⟩
  | .hbm, ⟨17, _⟩ => ⟨S_, .f32⟩
  | .hbm, ⟨18, _⟩ => ⟨S256x32, .f32⟩
  | .hbm, ⟨19, _⟩ => ⟨S256x32, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  shapeCasts_S256x8192_S256x512x16 : S256x8192.ShapeCasts S256x512x16
  shapeCasts_S8192x32_S512x16x32 : S8192x32.ShapeCasts S512x16x32
  bcast_S256x512x16_S256x512x16x1_0_1_2 : S256x512x16.BroadcastsInDim S256x512x16x1 (![0, 1, 2] : Fin 3 → Fin S256x512x16x1.rank)
  bcast_S512x16x32_S1x512x16x32_1_2_3 : S512x16x32.BroadcastsInDim S1x512x16x32 (![1, 2, 3] : Fin 3 → Fin S1x512x16x32.rank)
  bcast_S256x512x16x1_S256x512x16x32_0_1_2_3 : S256x512x16x1.BroadcastsInDim S256x512x16x32 (![0, 1, 2, 3] : Fin 4 → Fin S256x512x16x32.rank)
  bcast_S1x512x16x32_S256x512x16x32_0_1_2_3 : S1x512x16x32.BroadcastsInDim S256x512x16x32 (![0, 1, 2, 3] : Fin 4 → Fin S256x512x16x32.rank)
  reducesTo_S256x512x16x32_S256x16x32_d1 : S256x512x16x32.ReducesTo [1] S256x16x32
  h_S_ : 0 < S_.numel
  reducesTo_S256x16x32_S256x32_d1 : S256x16x32.ReducesTo [1] S256x32
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)

variable [Facts₀]

class Facts : Prop extends Facts₀ where

variable [Facts]
-- ==== Proof.Spec.lean ====
/-
  The function both programs compute, stated once over the argument arrays as the programs see them after
  the two reshapes: x as [256, 512, 16] (batch, shift, filter), W as [512, 16, 32] (shift, filter, output),
  the bias as [32]:

    out[b, o] = max (Σ_f (max over the 512 shifts s of x[b, s, f] · W[s, f, o]) + bias[o]) 0

  on the extended reals, where the maximum of a finite family is its supremum and -∞ is the bottom element.
  The kernel takes the maximum over the shifts in 8 tiles of 64, keeping a running maximum that starts at -∞;
  the reference takes it over all 512 at once. The two agree because the supremum of a family indexed by
  s = 64·k + j is the supremum over k of the suprema over j — a fact of the order alone, so no finiteness of
  the inputs is used anywhere.
-/
import Idealize.ShloMosaic.PureOps.Ideal
import Idealize.ShloMosaic.PureOps.Ideal.Laws
import Idealize.ShloMosaic.Lib.ValueIdx

noncomputable section

namespace Cert.ShiftMax

open Idealize.ShloMosaic Idealize.ShloMosaic.ValueIdx

/-- The word 0xFF800000 is f32's -∞: the bottom of the extended reals. -/
theorem negInf_eq_bot : Ideal.ofBits .f32 0xFF800000#32 = (⊥ : EReal) := by
  simp [Ideal.ofBits, Ideal.ieee]

/-- A fold of `max` from the bottom element over a whole finite index type is the family's supremum. -/
theorem fold_max_bot {ι : Type} [Fintype ι] (g : ι → EReal) :
    (Finset.univ : Finset ι).fold max (⊥ : EReal) g = Finset.univ.sup g := rfl

/-- The product the maximum ranges over, at batch row `b`, shift `s`, filter `f`, output `o`. -/
abbrev term (X : (⟨3, ![256, 512, 16]⟩ : Shape).Idx → EReal) (Wt : (⟨3, ![512, 16, 32]⟩ : Shape).Idx → EReal)
    (b : Fin 256) (f : Fin 16) (o : Fin 32) (s : Fin 512) : EReal :=
  X (ix3 b s f) * Wt (ix3 s f o)

/-- The maximum over all 512 shifts. -/
def shiftMax (X : (⟨3, ![256, 512, 16]⟩ : Shape).Idx → EReal) (Wt : (⟨3, ![512, 16, 32]⟩ : Shape).Idx → EReal)
    (b : Fin 256) (f : Fin 16) (o : Fin 32) : EReal :=
  Finset.univ.sup (term X Wt b f o)

/-- The result array: the filter sum of the shift maxima, plus the bias, clamped below at zero. -/
def G (X : (⟨3, ![256, 512, 16]⟩ : Shape).Idx → EReal) (Wt : (⟨3, ![512, 16, 32]⟩ : Shape).Idx → EReal)
    (bias : (⟨1, ![32]⟩ : Shape).Idx → EReal) : (⟨2, ![256, 32]⟩ : Shape).Idx → EReal :=
  fun i => max ((∑ f : Fin 16, shiftMax X Wt (i 0) f (i 1)) + bias (ix1 (i 1))) 0

/-- Shift `64·k + j` of tile `k`. -/
abbrev tileShift (k : Fin 8) (j : Fin 64) : Fin 512 := ⟨64 * k.val + j.val, by have := k.isLt; have := j.isLt; omega⟩

/-- The maximum over the 64 shifts of tile `k`. -/
def tileMax (h : Fin 512 → EReal) (k : Fin 8) : EReal := Finset.univ.sup fun j : Fin 64 => h (tileShift k j)

/-- The supremum over all 512 shifts is the supremum over the 8 tiles of the tiles' suprema. -/
theorem sup_tiles (h : Fin 512 → EReal) : Finset.univ.sup (tileMax h) = Finset.univ.sup h := by
  apply le_antisymm
  · refine Finset.sup_le fun k _ => Finset.sup_le fun j _ => ?_
    exact Finset.le_sup (f := h) (Finset.mem_univ (tileShift k j))
  · refine Finset.sup_le fun s _ => ?_
    have hs := s.isLt
    have e : s = tileShift ⟨s.val / 64, by omega⟩ ⟨s.val % 64, Nat.mod_lt _ (by decide)⟩ :=
      Fin.ext (by show s.val = 64 * (s.val / 64) + s.val % 64; omega)
    calc h s = h (tileShift ⟨s.val / 64, by omega⟩ ⟨s.val % 64, Nat.mod_lt _ (by decide)⟩) := congrArg h e
      _ ≤ tileMax h ⟨s.val / 64, by omega⟩ :=
          Finset.le_sup (f := fun j : Fin 64 => h (tileShift ⟨s.val / 64, by omega⟩ j)) (Finset.mem_univ _)
      _ ≤ Finset.univ.sup (tileMax h) := Finset.le_sup (f := tileMax h) (Finset.mem_univ _)

/-- The running maximum after tiles `0 … n`. -/
def runMax (P : Fin 8 → EReal) (n : ℕ) : EReal := (Finset.univ.filter fun k : Fin 8 => k.val ≤ n).sup P

/-- After the first tile it is that tile's maximum (the accumulator started at -∞). -/
theorem runMax_zero (P : Fin 8 → EReal) : runMax P 0 = P 0 := by
  unfold runMax
  rw [show (Finset.univ.filter fun k : Fin 8 => k.val ≤ 0) = {0} from by
    ext k; simp only [Finset.mem_filter, Finset.mem_univ, true_and, Finset.mem_singleton]
    exact ⟨fun h => Fin.ext (by show k.val = 0; omega), fun h => by subst h; exact le_refl _⟩]
  exact Finset.sup_singleton

/-- Each further tile joins its maximum to the running one. -/
theorem runMax_succ (P : Fin 8 → EReal) (n : ℕ) (hn : n + 1 < 8) :
    runMax P (n + 1) = max (runMax P n) (P ⟨n + 1, hn⟩) := by
  unfold runMax
  rw [show (Finset.univ.filter fun k : Fin 8 => k.val ≤ n + 1)
      = insert (⟨n + 1, hn⟩ : Fin 8) (Finset.univ.filter fun k : Fin 8 => k.val ≤ n) from by
    ext k; simp only [Finset.mem_filter, Finset.mem_univ, true_and, Finset.mem_insert]
    constructor
    · intro h
      by_cases e : k.val = n + 1
      · exact Or.inl (Fin.ext e)
      · exact Or.inr (by omega)
    · rintro (h | h)
      · subst h; exact le_refl _
      · omega]
  rw [Finset.sup_insert]
  exact max_comm _ _

/-- After the last tile it is the maximum over every tile. -/
theorem runMax_last (P : Fin 8 → EReal) : runMax P 7 = Finset.univ.sup P := by
  unfold runMax
  rw [Finset.filter_true_of_mem fun k _ => by have := k.isLt; omega]

end Cert.ShiftMax

end
-- ==== Proof.Pieces.lean ====
/-
  What one grid point leaves behind, as pure terms of what it loaded, at any float instance.

  The body has three shapes, chosen by the shift-tile coordinate si of the grid point:
    first tile (si = 0)  : the running-maximum scratch is reset to -∞, then joined with this tile's maximum;
    middle tiles         : the scratch is joined with this tile's maximum;
    last tile (si = 7)   : the same, and then the output block is written from the scratch and the bias.
  Each store covers its whole buffer and each load reads a whole buffer, so the contents after the point are
  the stored terms themselves: `update` (the join of the scratch with the tile's maximum) applied to the loaded
  blocks and to the scratch before the point (the reset value at the first tile), and for the output `finish`
  (filter sum, bias, clamp at zero) of the scratch after the point.
-/
import proofs.«160686_j77163382440516_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zeros1 : (![0] : Fin 1 → Nat) = fun _ => 0 := funext fun a => by fin_cases a; rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The scratch after a first-tile point: the reset value joined with the tile's maximum. The join's load of the
    scratch reads back the reset store just made. -/
theorem scratch_first (c : Dev nD) (i : grid0.Coords) (a2 : Memref sig .tc .vmem S128x64x16 .f32) (h2 : a2.IsWhole)
    (a3 : Memref sig .tc .vmem S64x16x32 .f32) (h3 : a3.IsWhole) (a4 : Memref sig .tc .vmem S32 .f32) (h4 : a4.IsWhole)
    (a5 : Memref sig .tc .vmem S128x32 .f32) (h5 : a5.IsWhole) (a6 : Memref sig .tc .vmem S128x16x32 .f32) (h6 : a6.IsWhole)
    (hc0 : cond0_0 i) (hc1 : ¬cond0_1 i)
    (x0 : Vec F S128x64x16 .f32) (x1 : Vec F S64x16x32 .f32) (x2 : Vec F S32 .f32) :
    sout0_A_0 c i a2 h2 a3 h3 a4 h4 a5 h5 a6 h6 hc0 hc1 x0 x1 x2 = k0_pay2 x0 x1 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S128x16x32) zeros3, View.readCov_unit_zero (S := S128x16x32) _ zeros3]
  simp only [View.readAt_eq_ld, h2.read_unread, h3.read_unread,
    View.ld_unit_zero (S := S128x64x16) zeros3, View.ld_unit_zero (S := S64x16x32) zeros3]

/-- The scratch after a middle-tile point: what the point before left, joined with the tile's maximum. -/
theorem scratch_middle (c : Dev nD) (i : grid0.Coords) (a2 : Memref sig .tc .vmem S128x64x16 .f32) (h2 : a2.IsWhole)
    (a3 : Memref sig .tc .vmem S64x16x32 .f32) (h3 : a3.IsWhole) (a4 : Memref sig .tc .vmem S32 .f32) (h4 : a4.IsWhole)
    (a5 : Memref sig .tc .vmem S128x32 .f32) (h5 : a5.IsWhole) (a6 : Memref sig .tc .vmem S128x16x32 .f32) (h6 : a6.IsWhole)
    (hc0 : ¬cond0_0 i) (hc1 : ¬cond0_1 i)
    (x0 : Vec F S128x64x16 .f32) (x1 : Vec F S64x16x32 .f32) (x2 : Vec F S32 .f32) (xs0 : Vec F S128x16x32 .f32) :
    sout0_B_0 c i a2 h2 a3 h3 a4 h4 a5 h5 a6 h6 hc0 hc1 x0 x1 x2 xs0 = k0_pay2 x0 x1 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero zeros3]
  simp only [View.readAt_eq_ld, h2.read_unread, h3.read_unread, h6.read_unread,
    View.ld_unit_zero (S := S128x64x16) zeros3, View.ld_unit_zero (S := S64x16x32) zeros3,
    View.ld_unit_zero (S := S128x16x32) zeros3]

/-- The scratch after a last-tile point: the same join. -/
theorem scratch_last (c : Dev nD) (i : grid0.Coords) (a2 : Memref sig .tc .vmem S128x64x16 .f32) (h2 : a2.IsWhole)
    (a3 : Memref sig .tc .vmem S64x16x32 .f32) (h3 : a3.IsWhole) (a4 : Memref sig .tc .vmem S32 .f32) (h4 : a4.IsWhole)
    (a5 : Memref sig .tc .vmem S128x32 .f32) (h5 : a5.IsWhole) (a6 : Memref sig .tc .vmem S128x16x32 .f32) (h6 : a6.IsWhole)
    (hc0 : ¬cond0_0 i) (hc1 : cond0_1 i)
    (x0 : Vec F S128x64x16 .f32) (x1 : Vec F S64x16x32 .f32) (x2 : Vec F S32 .f32) (xs0 : Vec F S128x16x32 .f32) :
    sout0_C_0 c i a2 h2 a3 h3 a4 h4 a5 h5 a6 h6 hc0 hc1 x0 x1 x2 xs0 = k0_pay2 x0 x1 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero zeros3]
  simp only [View.readAt_eq_ld, h2.read_unread, h3.read_unread, h6.read_unread,
    View.ld_unit_zero (S := S128x64x16) zeros3, View.ld_unit_zero (S := S64x16x32) zeros3,
    View.ld_unit_zero (S := S128x16x32) zeros3]

/-- The output block a last-tile point writes: filter sum, bias and clamp of the scratch as the point leaves it
    (its load of the scratch reads back the join just stored). -/
theorem out_last (c : Dev nD) (i : grid0.Coords) (a2 : Memref sig .tc .vmem S128x64x16 .f32) (h2 : a2.IsWhole)
    (a3 : Memref sig .tc .vmem S64x16x32 .f32) (h3 : a3.IsWhole) (a4 : Memref sig .tc .vmem S32 .f32) (h4 : a4.IsWhole)
    (a5 : Memref sig .tc .vmem S128x32 .f32) (h5 : a5.IsWhole) (a6 : Memref sig .tc .vmem S128x16x32 .f32) (h6 : a6.IsWhole)
    (hc0 : ¬cond0_0 i) (hc1 : cond0_1 i)
    (x0 : Vec F S128x64x16 .f32) (x1 : Vec F S64x16x32 .f32) (x2 : Vec F S32 .f32) (xs0 : Vec F S128x16x32 .f32) :
    out0_C_3 c i a2 h2 a3 h3 a4 h4 a5 h5 a6 h6 hc0 hc1 x0 x1 x2 xs0 = k0_pay3 (k0_pay2 x0 x1 xs0) x2 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero zeros2, View.readCov_unit_zero (S := S128x16x32) _ zeros3]
  simp only [View.readAt_eq_ld, h2.read_unread, h3.read_unread, h4.read_unread, h6.read_unread,
    View.ld_unit_zero (S := S128x64x16) zeros3, View.ld_unit_zero (S := S64x16x32) zeros3,
    View.ld_unit_zero (S := S128x16x32) zeros3, View.ld_unit_zero (S := S32) zeros1]

end Cert.KernelIdeal.Pieces

end
-- ==== Proof.Payload.lean ====
/-
  The body's two stored terms read at an index, on the extended reals.

  `update` (the term stored into the running-maximum scratch): with x the loaded [128, 64, 16] block of inputs
  (row, shift within the tile, filter), w the loaded [64, 16, 32] block of weights (shift within the tile, filter,
  output) and acc the scratch before the store,
      update x w acc [b, f, o] = max (acc[b, f, o]) (sup over the 64 shifts j of x[b, j, f] · w[j, f, o]).
  The two operands are broadcast to [128, 64, 16, 32] — x along a new trailing axis, w along a new leading one —
  multiplied entry by entry, and reduced by maximum over the shift axis from -∞, which is the supremum of the
  64 products.

  `finish` (the term stored into the output block): with s the scratch [128, 16, 32] and β the bias [32],
      finish s β [b, o] = max (Σ over the 16 filters f of s[b, f, o] + β[o]) 0.
  The reset value is -∞ at every index.
-/
import proofs.«160686_j77163382440516_2_alg».proof.Proof.Gen.KernelIdeal.Skeleton
import proofs.«160686_j77163382440516_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.ShiftMax

/-- The reset value is -∞ everywhere. -/
theorem reset_apply (i : S128x16x32.Idx) : k0_pay1 (F := Ideal) i = ⊥ := by
  unfold k0_pay1
  simp only [shapeCast_self]
  exact negInf_eq_bot

/-- The broadcast product at (b, j, f, o) is x[b, j, f] · w[j, f, o]: the input block gained a trailing unit axis
    and was repeated along the outputs, the weight block gained a leading unit axis and was repeated along the rows. -/
theorem prod_apply (x0 : Vec Ideal S128x64x16 .f32) (x1 : Vec Ideal S64x16x32 .f32)
    (b : Fin 128) (j : Fin 64) (f : Fin 16) (o : Fin 32) :
    mulf (F := Ideal) (φ := .f32) (broadcastTo S128x64x16x32 (shapeCast S128x64x16x1 x0 shapeCasts_S128x64x16_S128x64x16x1) broadcasts_S128x64x16x1_S128x64x16x32)
         (broadcastTo S128x64x16x32 (shapeCast S1x64x16x32 x1 shapeCasts_S64x16x32_S1x64x16x32) broadcasts_S1x64x16x32_S128x64x16x32)
         (ix4 b j f o)
      = x0 (ix3 b j f) * x1 (ix3 j f o) := by
  rw [mulf_apply]
  refine congrArg₂ (· * ·) ?_ ?_
  · refine (broadcastTo_apply _ broadcasts_S128x64x16x1_S128x64x16x32 (ix4 b j f o) (ix4 b j f (0 : Fin 1)) (fun a => ?_)).trans ?_
    · match a with
      | ⟨0, _⟩ => show b.val = if (128 : Nat) = 1 then 0 else b.val; rw [if_neg (by decide)]
      | ⟨1, _⟩ => show j.val = if (64 : Nat) = 1 then 0 else j.val; rw [if_neg (by decide)]
      | ⟨2, _⟩ => show f.val = if (16 : Nat) = 1 then 0 else f.val; rw [if_neg (by decide)]
      | ⟨3, _⟩ => show 0 = if (1 : Nat) = 1 then 0 else o.val; rw [if_pos rfl]
    · exact shapeCast_apply x0 shapeCasts_S128x64x16_S128x64x16x1 (ix4 b j f (0 : Fin 1)) (ix3 b j f) (by
        rw [Shape.rowMajor_val_three, Shape.rowMajor_val_four]
        show (b.val * 64 + j.val) * 16 + f.val = ((b.val * 64 + j.val) * 16 + f.val) * 1 + 0
        omega)
  · refine (broadcastTo_apply _ broadcasts_S1x64x16x32_S128x64x16x32 (ix4 b j f o) (ix4 (0 : Fin 1) j f o) (fun a => ?_)).trans ?_
    · match a with
      | ⟨0, _⟩ => show 0 = if (1 : Nat) = 1 then 0 else b.val; rw [if_pos rfl]
      | ⟨1, _⟩ => show j.val = if (64 : Nat) = 1 then 0 else j.val; rw [if_neg (by decide)]
      | ⟨2, _⟩ => show f.val = if (16 : Nat) = 1 then 0 else f.val; rw [if_neg (by decide)]
      | ⟨3, _⟩ => show o.val = if (32 : Nat) = 1 then 0 else o.val; rw [if_neg (by decide)]
    · exact shapeCast_abc_1abc_apply x1 shapeCasts_S64x16x32_S1x64x16x32 (0 : Fin 1) j f o

/-- The maximum-reduction over the shift axis, from -∞, is the supremum over the tile's 64 shifts. -/
theorem tileSup_apply (v : FVec Ideal S128x64x16x32 .f32) (hφ : FKind.Formats .f32)
    (hacc : (0xFF800000#32 : BitVec 32) = FKind.maximumf.neutral .f32 hφ) (b : Fin 128) (f : Fin 16) (o : Fin 32) :
    multiReduction (F := Ideal) .maximumf [1] S128x16x32 v 0xFF800000#32 reduces_S128x64x16x32_S128x16x32 hφ hacc (ix3 b f o)
      = Finset.univ.sup fun j : Fin 64 => v (ix4 b j f o) := by
  refine (Ideal.multiReduction_maximumf_single v 0xFF800000#32 reduces_S128x64x16x32_S128x16x32 hφ hacc (ix3 b f o)).trans ?_
  show (Finset.univ : Finset (Fin 64)).fold max (Ideal.ofBits .f32 0xFF800000#32) _ = _
  rw [negInf_eq_bot]
  refine Finset.sup_congr rfl fun j _ => congrArg v (funext fun a => Fin.ext ?_)
  match a with
  | ⟨0, _⟩ => rfl
  | ⟨1, _⟩ => rfl
  | ⟨2, _⟩ => rfl
  | ⟨3, _⟩ => rfl

/-- The scratch's update at (b, f, o): the old entry joined with the supremum of the tile's 64 products. -/
theorem update_apply (x0 : Vec Ideal S128x64x16 .f32) (x1 : Vec Ideal S64x16x32 .f32) (acc : Vec Ideal S128x16x32 .f32)
    (b : Fin 128) (f : Fin 16) (o : Fin 32) :
    k0_pay2 (F := Ideal) x0 x1 acc (ix3 b f o)
      = max (acc (ix3 b f o)) (Finset.univ.sup fun j : Fin 64 => x0 (ix3 b j f) * x1 (ix3 j f o)) := by
  unfold k0_pay2
  simp only [shapeCast_self]
  rw [maximumf_apply]
  refine congrArg (max (acc (ix3 b f o))) ?_
  refine (tileSup_apply _ (.inl rfl) rfl b f o).trans ?_
  exact Finset.sup_congr rfl fun j _ => prod_apply x0 x1 b j f o

/-- The output entry at (b, o): the filter sum of the scratch, plus the bias, clamped below at zero. -/
theorem finish_apply (v21 : Vec Ideal S128x16x32 .f32) (v23 : Vec Ideal S32 .f32) (b : Fin 128) (o : Fin 32) :
    k0_pay3 (F := Ideal) v21 v23 (ix2 b o) = max ((∑ f : Fin 16, v21 (ix3 b f o)) + v23 (ix1 o)) 0 := by
  unfold k0_pay3
  show max (multiReduction (F := Ideal) .add [1] S128x32 v21 0x00000000#32 reduces_S128x16x32_S128x32 (.inl rfl) rfl (ix2 b o)
      + broadcastTo S128x32 (shapeCast S1x32 v23 shapeCasts_S32_S1x32) broadcasts_S1x32_S128x32 (ix2 b o))
      (Ideal.ofBits .f32 0x00000000#32) = _
  refine congrArg₂ max (congrArg₂ (· + ·) ?_ ?_) Ideal.ofBits_zero_f32
  · refine (Ideal.multiReduction_add_single v21 0x00000000#32 reduces_S128x16x32_S128x32 (.inl rfl) rfl (ix2 b o)).trans ?_
    show ∑ k : Fin 16, _ = _
    refine Finset.sum_congr rfl fun k _ => congrArg v21 (funext fun a => Fin.ext ?_)
    match a with
    | ⟨0, _⟩ => rfl
    | ⟨1, _⟩ => rfl
    | ⟨2, _⟩ => rfl
  · refine (broadcastTo_apply _ broadcasts_S1x32_S128x32 (ix2 b o) (ix2 (0 : Fin 1) o) (fun a => ?_)).trans ?_
    · match a with
      | ⟨0, _⟩ => show 0 = if (1 : Nat) = 1 then 0 else b.val; rw [if_pos rfl]
      | ⟨1, _⟩ => show o.val = if (32 : Nat) = 1 then 0 else o.val; rw [if_neg (by decide)]
    · exact shapeCast_a_1a_apply v23 shapeCasts_S32_S1x32 (0 : Fin 1) o

end Cert.KernelIdeal.Payload

end
-- ==== Proof.Blocks.lean ====
/-
  Where each window's block sits in its array, at grid point t = 8·bi + si (bi the batch tile, si the shift tile):
    inputs  [256, 512, 16] : block (bi, si, 0) of extents (128, 64, 16) — entry (b, j, f) is array entry (128·bi + b, 64·si + j, f);
    weights [512, 16, 32]  : block (si, 0, 0) of extents (64, 16, 32)   — entry (j, f, o) is array entry (64·si + j, f, o);
    bias    [32]           : the whole array;
    output  [256, 32]      : block (bi, 0) of extents (128, 32).
  The block indices are the printed index maps evaluated at the 16 grid points. The arrays the region reads
  are the two host reshapes of the arguments.
-/
import proofs.«160686_j77163382440516_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The block indices of the four windows at point t: the batch tile is t / 8, the shift tile t % 8. -/
theorem index_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val % 8 ∧ win0_1.index t (1 : Fin 3) = 0 ∧ win0_1.index t (2 : Fin 3) = 0
    ∧ win0_2.index t (0 : Fin 1) = 0
    ∧ win0_3.index t (0 : Fin 2) = t.val / 8 ∧ win0_3.index t (1 : Fin 2) = 0 :=
  (by decide +kernel : ∀ t : Fin grid0.N, _)

/-- The input block's entry (b, j, f) is the array's entry at row 128·(t/8) + b, shift 64·(t%8) + j, filter f. -/
theorem xblock_apply (c : Dev nD) (t : Fin cfg0.N) (b : Fin 128) (j : Fin 64) (f : Fin 16)
    (B : Fin 256) (s : Fin 512) (hB : B.val = 128 * (t.val / 8) + b.val) (hs : s.val = 64 * (t.val % 8) + j.val) :
    (iblk m c 0 t : Vec F S128x64x16 .f32) (ix3 b j f) = V m c main_v0 (ix3 B s f) := by
  obtain ⟨e0, e1, e2, -⟩ := index_facts t
  unfold iblk
  rw [View.read_apply]
  show V m c main_v0 _ = V m c main_v0 _
  congr 1
  funext a
  apply Fin.ext
  match a with
  | ⟨0, _⟩ => show win0_0.index t (0 : Fin 3) * 128 + 1 * b.val = B.val; omega
  | ⟨1, _⟩ => show win0_0.index t (1 : Fin 3) * 64 + 1 * j.val = s.val; omega
  | ⟨2, _⟩ => show win0_0.index t (2 : Fin 3) * 16 + 1 * f.val = f.val; omega

/-- The weight block's entry (j, f, o) is the array's entry at shift 64·(t%8) + j, filter f, output o. -/
theorem wblock_apply (c : Dev nD) (t : Fin cfg0.N) (j : Fin 64) (f : Fin 16) (o : Fin 32)
    (s : Fin 512) (hs : s.val = 64 * (t.val % 8) + j.val) :
    (iblk m c 1 t : Vec F S64x16x32 .f32) (ix3 j f o) = V m c main_v1 (ix3 s f o) := by
  obtain ⟨-, -, -, e0, e1, e2, -⟩ := index_facts t
  unfold iblk
  rw [View.read_apply]
  show V m c main_v1 _ = V m c main_v1 _
  congr 1
  funext a
  apply Fin.ext
  match a with
  | ⟨0, _⟩ => show win0_1.index t (0 : Fin 3) * 64 + 1 * j.val = s.val; omega
  | ⟨1, _⟩ => show win0_1.index t (1 : Fin 3) * 16 + 1 * f.val = f.val; omega
  | ⟨2, _⟩ => show win0_1.index t (2 : Fin 3) * 32 + 1 * o.val = o.val; omega

/-- The bias block is the bias. -/
theorem bias_apply (c : Dev nD) (t : Fin cfg0.N) (o : Fin 32) :
    (iblk m c 2 t : Vec F S32 .f32) (ix1 o) = V m c main_arg2 (ix1 o) := by
  obtain ⟨-, -, -, -, -, -, e0, -⟩ := index_facts t
  unfold iblk
  rw [View.read_apply]
  show V m c main_arg2 _ = V m c main_arg2 _
  congr 1
  funext a
  apply Fin.ext
  match a with
  | ⟨0, _⟩ => show win0_2.index t (0 : Fin 1) * 32 + 1 * o.val = o.val; omega

/-- The inputs as the region finds them: the first argument reshaped to [256, 512, 16]. -/
theorem x_entry (c : Dev nD) :
    (V m c main_v0 : S256x512x16.Idx → Elt F .f32)
      = shapeCast S256x512x16 (m ((c : Thread nD τ).loc main_arg0)) shapeCasts_S256x8192_S256x512x16 := by
  dsimp only [Gen.V, Gen.hostOps0]; after_results; rfl

/-- The weights as the region finds them: the second argument reshaped to [512, 16, 32]. -/
theorem w_entry (c : Dev nD) :
    (V m c main_v1 : S512x16x32.Idx → Elt F .f32)
      = shapeCast S512x16x32 (m ((c : Thread nD τ).loc main_arg1)) shapeCasts_S8192x32_S512x16x32 := by
  dsimp only [Gen.V, Gen.hostOps0]; after_results; rfl

end Cert.KernelIdeal.Blocks

end
-- ==== Proof.Running.lean ====
/-
  What the running-maximum scratch holds after each grid point, on the extended reals.

  Write a grid point as t = 8·bi + si. After point t the scratch entry (b, f, o) is the maximum, over the shift
  tiles 0 … si, of the tile maxima of x[128·bi + b, s, f] · W[s, f, o]:
      scratch_t[b, f, o] = runMax (tile maxima of row 128·bi + b, filter f, output o) si.
  At si = 0 the body first resets the scratch to -∞, so the join leaves the first tile's maximum alone
  (max ⊥ p = p); at every later point the join adds tile si to what point t - 1 left, and the row block bi
  has not changed since ((t - 1) / 8 = t / 8 when si > 0). This is an induction on t over the three cases
  of the body, never an enumeration of the 16 points.
-/
import proofs.«160686_j77163382440516_2_alg».proof.Proof.Gen.KernelIdeal.Value
import proofs.«160686_j77163382440516_2_alg».proof.Proof.Spec
import proofs.«160686_j77163382440516_2_alg».proof.Proof.Pieces
import proofs.«160686_j77163382440516_2_alg».proof.Proof.Payload
import proofs.«160686_j77163382440516_2_alg».proof.Proof.Blocks

noncomputable section
open Idealize.ShloMosaic Idealize.ShloMosaic.TcCoe Idealize.SL.Sem
namespace Cert.KernelIdeal.Running
open Cert.KernelIdeal Cert.KernelIdeal.Gen Idealize.ShloMosaic.ValueIdx Cert.ShiftMax

variable (m : (ℓ : Loc nD τ sig) → Buf (Elt Ideal) ℓ)

/-- Joining tile n + 1 to the running maximum after tiles 0 … n. -/
theorem runMax_step (P : Fin 8 → EReal) (n k : ℕ) (hk : k < 8) (e : k = n + 1) :
    max (runMax P n) (P ⟨k, hk⟩) = runMax P k := by
  subst e; exact (runMax_succ P n hk).symm

/-- One point's update of the scratch at (b, f, o) in terms of the arrays: the old entry joined with the maximum
    of tile t % 8 of row 128·(t / 8) + b. -/
theorem update_at (c : Dev nD) (t : Fin cfg0.N) (acc : Vec Ideal S128x16x32 .f32) (b : Fin 128) (f : Fin 16) (o : Fin 32)
    (B : Fin 256) (hB : B.val = 128 * (t.val / 8) + b.val) (k : Fin 8) (hk : k.val = t.val % 8) :
    k0_pay2 (F := Ideal) (iblk m c 0 t) (iblk m c 1 t) acc (ix3 b f o)
      = max (acc (ix3 b f o)) (tileMax (term (V m c main_v0) (V m c main_v1) B f o) k) := by
  refine (Payload.update_apply (iblk m c 0 t) (iblk m c 1 t) acc b f o).trans ?_
  refine congrArg (max (acc (ix3 b f o))) ?_
  unfold tileMax
  refine Finset.sup_congr rfl fun j _ => ?_
  exact congrArg₂ (· * ·)
    (Blocks.xblock_apply m c t b j f B (tileShift k j) hB (by show 64 * k.val + j.val = _; rw [hk]))
    (Blocks.wblock_apply m c t j f o (tileShift k j) (by show 64 * k.val + j.val = _; rw [hk]))

/-- At a first-tile point the scratch holds that tile's maxima. -/
theorem first_tile (c : Dev nD) (t : Fin cfg0.N) (h0 : t.val % 8 = 0) (b : Fin 128) (f : Fin 16) (o : Fin 32)
    (B : Fin 256) (hB : B.val = 128 * (t.val / 8) + b.val) :
    (outsAt0 m c t.val t.isLt).2 (ix3 b f o) = runMax (tileMax (term (V m c main_v0) (V m c main_v1) B f o)) (t.val % 8) := by
  have h1 : ¬t.val % 8 = 7 := by omega
  rw [outsAt0_A m c t h0 h1]
  dsimp only
  rw [Pieces.scratch_first, h0, runMax_zero]
  refine (update_at m c t _ b f o B hB 0 h0.symm).trans ?_
  rw [Payload.reset_apply]
  exact max_bot_left _

/-- At a later point it holds the running maximum through the point's tile, given the same of the point before. -/
theorem later_tile (c : Dev nD) (t : Fin cfg0.N) (h0 : ¬t.val % 8 = 0)
    (prev : ∀ (b : Fin 128) (f : Fin 16) (o : Fin 32) (B : Fin 256), B.val = 128 * ((t.val - 1) / 8) + b.val →
      (outsAt0 m c (t.val - 1) (Nat.lt_of_le_of_lt (Nat.sub_le _ _) t.isLt)).2 (ix3 b f o)
        = runMax (tileMax (term (V m c main_v0) (V m c main_v1) B f o)) ((t.val - 1) % 8))
    (b : Fin 128) (f : Fin 16) (o : Fin 32) (B : Fin 256) (hB : B.val = 128 * (t.val / 8) + b.val) :
    (outsAt0 m c t.val t.isLt).2 (ix3 b f o) = runMax (tileMax (term (V m c main_v0) (V m c main_v1) B f o)) (t.val % 8) := by
  have hN : t.val < 16 := lt_of_lt_of_eq t.isLt N_0
  have hk : t.val % 8 < 8 := Nat.mod_lt _ (by decide)
  have step : max ((outsAt0 m c (t.val - 1) (Nat.lt_of_le_of_lt (Nat.sub_le _ _) t.isLt)).2 (ix3 b f o))
      (tileMax (term (V m c main_v0) (V m c main_v1) B f o) ⟨t.val % 8, hk⟩)
      = runMax (tileMax (term (V m c main_v0) (V m c main_v1) B f o)) (t.val % 8) := by
    rw [prev b f o B (by omega)]
    exact runMax_step _ ((t.val - 1) % 8) (t.val % 8) hk (by omega)
  by_cases h1 : t.val % 8 = 7
  · rw [outsAt0_C m c t h0 h1]
    dsimp only
    rw [Pieces.scratch_last]
    exact (update_at m c t _ b f o B hB ⟨t.val % 8, hk⟩ rfl).trans step
  · rw [outsAt0_B m c t h0 h1]
    dsimp only
    rw [Pieces.scratch_middle]
    exact (update_at m c t _ b f o B hB ⟨t.val % 8, hk⟩ rfl).trans step

/-- After point n the scratch entry (b, f, o) is the running maximum through shift tile n % 8 of row 128·(n / 8) + b. -/
theorem scratch_eq (c : Dev nD) : ∀ (n : ℕ) (h : n < cfg0.N) (b : Fin 128) (f : Fin 16) (o : Fin 32) (B : Fin 256),
    B.val = 128 * (n / 8) + b.val →
    (outsAt0 m c n h).2 (ix3 b f o) = runMax (tileMax (term (V m c main_v0) (V m c main_v1) B f o)) (n % 8) := by
  intro n
  induction n with
  | zero => intro h b f o B hB; exact first_tile m c ⟨0, h⟩ rfl b f o B hB
  | succ n ih =>
    intro h b f o B hB
    by_cases h0 : (n + 1) % 8 = 0
    · exact first_tile m c ⟨n + 1, h⟩ h0 b f o B hB
    · exact later_tile m c ⟨n + 1, h⟩ h0 (fun b' f' o' B' hB' => ih (Nat.lt_of_succ_lt h) b' f' o' B' hB') b f o B hB

end Cert.KernelIdeal.Running
end
-- ==== Proof.Whole.lean ====
/-
  The kernel's result array as one function of the arrays it reads.

  The output window's block index is (bi, 0): it does not move while the shift tile si runs 0 … 7, the body
  stores into it only at si = 7, and the pipeline writes it back exactly at the points t ≡ 7 (mod 8). At such a
  point the block written is finish (scratch after the point) bias, and the scratch then holds the running maximum
  through all 8 tiles, which is the maximum over all 512 shifts. So the block's entry (b, o) is G at row
  128·bi + b, column o. The two write-backs (bi = 0, 1) cover rows 0 … 127 and 128 … 255: every index of the
  [256, 32] array is in the block of the point 8·(row / 128) + 7, so the array ends holding G everywhere.
-/
import proofs.«160686_j77163382440516_2_alg».proof.Proof.Running

noncomputable section
open Idealize.ShloMosaic Idealize.ShloMosaic.TcCoe Idealize.SL.Sem
open Idealize.ShloMosaic.Pipeline (Dat)
namespace Cert.KernelIdeal.Whole
open Cert.KernelIdeal Cert.KernelIdeal.Gen Idealize.ShloMosaic.ValueIdx Cert.ShiftMax

variable (m : (ℓ : Loc nD τ sig) → Buf (Elt Ideal) ℓ) (ρ : Dev nD → PrngReg)

/-- The result array: G of the inputs and weights as the region finds them (the two reshaped arguments) and the bias. -/
abbrev result (c : Dev nD) : Buf (Elt Ideal) ((c : Thread nD τ).loc main_v2) :=
  G (V m c main_v0) (V m c main_v1) (V m c main_arg2)

/-- What a write-back point writes is its block of the result array. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush0_3 t).mp hf
  have h0 : ¬t.val % 8 = 0 := by omega
  have hN : t.val < 16 := lt_of_lt_of_eq t.isLt N_0
  obtain ⟨-, -, -, -, -, -, -, e0, e1⟩ := Blocks.index_facts t
  rw [Value.flushed3_C m c t h0 h1, Pieces.out_last]
  funext y
  obtain ⟨b, o, rfl⟩ : ∃ (b : Fin 128) (o : Fin 32), y = ix2 b o := ⟨y 0, y 1, eq_ix2 y⟩
  have hb : b.val < 128 := b.isLt
  have hB : 128 * (t.val / 8) + b.val < 256 := by omega
  have hemb : ((cfg0.win 3).blk t).view.emb (ix2 b o) = ix2 (⟨128 * (t.val / 8) + b.val, hB⟩ : Fin 256) o := by
    funext a; apply Fin.ext
    match a with
    | ⟨0, _⟩ => show win0_3.index t (0 : Fin 2) * 128 + 1 * b.val = 128 * (t.val / 8) + b.val; omega
    | ⟨1, _⟩ => show win0_3.index t (1 : Fin 2) * 32 + 1 * o.val = o.val; omega
  show k0_pay3 (F := Ideal) (k0_pay2 (iblk m c 0 t) (iblk m c 1 t) (outsAt0 m c (t.val - 1) _).2) (iblk m c 2 t) (ix2 b o)
    = result m c (((cfg0.win 3).blk t).view.emb (ix2 b o))
  rw [hemb]
  refine (Payload.finish_apply _ _ b o).trans ?_
  show _ = max ((∑ f : Fin 16, shiftMax (V m c main_v0) (V m c main_v1) ⟨128 * (t.val / 8) + b.val, hB⟩ f o) + V m c main_arg2 (ix1 o)) 0
  refine congrArg₂ max (congrArg₂ (· + ·) (Finset.sum_congr rfl fun f _ => ?_) (Blocks.bias_apply m c t o)) rfl
  refine (Running.update_at m c t _ b f o ⟨128 * (t.val / 8) + b.val, hB⟩ rfl ⟨7, by decide⟩ (by show 7 = t.val % 8; omega)).trans ?_
  rw [Running.scratch_eq m c (t.val - 1) _ b f o ⟨128 * (t.val / 8) + b.val, hB⟩ (by show 128 * (t.val / 8) + b.val = 128 * ((t.val - 1) / 8) + b.val; omega)]
  rw [Running.runMax_step _ ((t.val - 1) % 8) 7 (by decide) (by omega), runMax_last]
  unfold shiftMax
  exact sup_tiles _

/-- Every index (r, o) of the array lies in the block written back at point 8·(r / 128) + 7. -/
theorem covered (i : S256x32.Idx) :
    ∃ t : Fin cfg0.N, (cfg0.win 3).flush t = true ∧ i ∈ ((cfg0.win 3).blk t).view.set := by
  have hi0 : (i 0).val < 256 := (i 0).isLt
  have hi1 : (i 1).val < 32 := (i 1).isLt
  have hN : cfg0.N = 16 := N_0
  have ht : 8 * ((i 0).val / 128) + 7 < cfg0.N := by rw [hN]; omega
  refine ⟨⟨8 * ((i 0).val / 128) + 7, ht⟩, (flush0_3 _).mpr (by show (8 * ((i 0).val / 128) + 7) % 8 = 7; omega), ?_⟩
  obtain ⟨-, -, -, -, -, -, -, e0, e1⟩ := Blocks.index_facts ⟨8 * ((i 0).val / 128) + 7, ht⟩
  have e0' : win0_3.index ⟨8 * ((i 0).val / 128) + 7, ht⟩ (0 : Fin 2) = (8 * ((i 0).val / 128) + 7) / 8 := e0
  show i ∈ ((View.whole main_v2).slice (win0_3.rect ⟨8 * ((i 0).val / 128) + 7, ht⟩)).set
  rw [View.set_slice_whole, Rect.mem_set_unit]
  intro a
  match a with
  | ⟨0, _⟩ =>
    show win0_3.index ⟨8 * ((i 0).val / 128) + 7, ht⟩ (0 : Fin 2) * 128 ≤ (i 0).val
      ∧ (i 0).val < win0_3.index ⟨8 * ((i 0).val / 128) + 7, ht⟩ (0 : Fin 2) * 128 + 128
    omega
  | ⟨1, _⟩ =>
    show win0_3.index ⟨8 * ((i 0).val / 128) + 7, ht⟩ (1 : Fin 2) * 32 ≤ (i 1).val
      ∧ (i 1).val < win0_3.index ⟨8 * ((i 0).val / 128) + 7, ht⟩ (1 : Fin 2) * 32 + 32
    omega

/-- So the array ends holding the result everywhere. -/
theorem final (c : Dev nD) : (dats m 0 c).arrAt 3 cfg0.N = result m c :=
  (dats m 0 c).arrAt_eq_of_cover 3 (result m c) (flushed_eq m c) covered

/-- The result in terms of the arguments: the two host reshapes, and the bias untouched. -/
theorem result_args (c : Dev nD) : result m c
    = G (shapeCast S256x512x16 (m ((c : Thread nD τ).loc main_arg0)) shapeCasts_S256x8192_S256x512x16)
        (shapeCast S512x16x32 (m ((c : Thread nD τ).loc main_arg1)) shapeCasts_S8192x32_S512x16x32)
        (m ((c : Thread nD τ).loc main_arg2)) := by
  show G (V m c main_v0) (V m c main_v1) (V m c main_arg2) = _
  rw [Blocks.x_entry m c, Blocks.w_entry m c, V_main_arg2 m c]

/-- The run: every weakly fair execution ends with the result array at the result and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole
end
-- ==== Proof.RefValue.lean ====
/-
  The reference's result as the same function of its arguments.

  The reference multiplies the inputs [256, 512, 16] (broadcast along a new output axis) by the weights
  [512, 16, 32] (broadcast along a new row axis) to a [256, 512, 16, 32] array, takes the maximum over the shift
  axis from -∞ — at (B, f, o) the supremum over the 512 shifts s of x[B, s, f] · W[s, f, o] —, sums over the 16
  filters from 0, adds the bias and takes the maximum with 0. Index by index that is G of the two reshaped
  arguments and the bias; the 0 the host's sum starts from is the additive unit.
-/
import proofs.«160686_j77163382440516_2_alg».proof.Proof.Gen.ReferenceIdeal.Read
import proofs.«160686_j77163382440516_2_alg».proof.Proof.Spec
import Idealize.ShloMosaic.Lib.ValueIdx
import Idealize.ShloMosaic.PureOps.Ideal.Laws

set_option synthInstance.maxSize 4096

noncomputable section
open Idealize.ShloMosaic Idealize.ShloMosaic.TcCoe Idealize.SL.Sem
namespace Cert.ReferenceIdeal.RefValue
open Cert.ReferenceIdeal Cert.ReferenceIdeal.Gen Cert.ReferenceIdeal.Read Idealize.ShloMosaic.ValueIdx Cert.ShiftMax

/-- Dropping the shift axis of [256, 512, 16, 32] leaves [256, 16, 32]. -/
theorem reduces_shift : S256x512x16x32.Reduces [1] S256x16x32 := by decide

/-- The host's maximum over the shift axis at (B, f, o) is the supremum of the 512 products. -/
theorem hostMax_apply (x0 : (⟨S256x8192, .f32⟩ : BufTy).Contents (Elt Ideal)) (x1 : (⟨S8192x32, .f32⟩ : BufTy).Contents (Elt Ideal))
    (B : Fin 256) (f : Fin 16) (o : Fin 32) :
    val_main_v7 (F := Ideal) x0 x1 (ix3 B f o) = shiftMax (val_main_v0 (F := Ideal) x0) (val_main_v1 (F := Ideal) x1) B f o := by
  unfold val_main_v7
  have key := Host.reduce_eq_fold_single (α := Ideal .f32) (FloatOps.maximumf (F := Ideal) (φ := .f32))
    (val_main_v6 (F := Ideal) x0 x1) (val_main_cst (F := Ideal))
    reducesTo_S256x512x16x32_S256x16x32_d1 reduces_shift h_S_ (ix3 B f o)
  refine key.trans ?_
  show (Finset.univ : Finset (Fin 512)).fold max (Ideal.ofBits .f32 0xFF800000#32) _ = _
  rw [negInf_eq_bot]
  unfold shiftMax
  refine Finset.sup_congr rfl fun s _ => ?_
  show val_main_v6 (F := Ideal) x0 x1 (reduces_shift.lift (ix3 B f o) s) = _
  rw [show reduces_shift.lift (ix3 B f o) s = ix4 B s f o from funext fun a => Fin.ext (by
    match a with
    | ⟨0, _⟩ => rfl
    | ⟨1, _⟩ => rfl
    | ⟨2, _⟩ => rfl
    | ⟨3, _⟩ => rfl)]
  rw [val_main_v6_apply, val_main_v4_apply, val_main_v2_apply, val_main_v5_apply, val_main_v3_apply]
  refine congrArg₂ (· * ·) (congrArg _ (funext fun a => Fin.ext ?_)) (congrArg _ (funext fun a => Fin.ext ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The reference's result is G of the reshaped arguments and the bias. -/
theorem result_eq (x0 : (⟨S256x8192, .f32⟩ : BufTy).Contents (Elt Ideal)) (x1 : (⟨S8192x32, .f32⟩ : BufTy).Contents (Elt Ideal))
    (x2 : (⟨S32, .f32⟩ : BufTy).Contents (Elt Ideal)) :
    val_main_v12 (F := Ideal) x0 x1 x2 = G (val_main_v0 (F := Ideal) x0) (val_main_v1 (F := Ideal) x1) x2 := by
  funext i
  obtain ⟨B, o, rfl⟩ : ∃ (B : Fin 256) (o : Fin 32), i = ix2 B o := ⟨i 0, i 1, eq_ix2 i⟩
  rw [val_main_v12_apply, val_main_v11_apply, val_main_v8_apply, val_main_v10_apply, val_main_v9_apply,
    val_main_call0_v0_apply, val_main_call0_cst_apply, val_main_cst_0_apply]
  show max ((Ideal.ofBits .f32 0x00000000#32 + ∑ k : Fin 16, val_main_v7 (F := Ideal) x0 x1 (idx_main_v8 (ix2 B o) k))
      + x2 (idx_main_v9 (idx_main_v10 (ix2 B o)))) (Ideal.ofBits .f32 0x00000000#32)
    = max ((∑ f : Fin 16, shiftMax (val_main_v0 (F := Ideal) x0) (val_main_v1 (F := Ideal) x1) B f o) + x2 (ix1 o)) 0
  rw [Ideal.ofBits_zero_f32, zero_add]
  refine congrArg₂ max (congrArg₂ (· + ·) (Finset.sum_congr rfl fun f _ => ?_) (congrArg x2 (funext fun a => Fin.ext ?_))) rfl
  · rw [show idx_main_v8 (ix2 B o) f = ix3 B f o from funext fun a => Fin.ext (by
      match a with
      | ⟨0, _⟩ => rfl
      | ⟨1, _⟩ => rfl
      | ⟨2, _⟩ => rfl)]
    exact hostMax_apply x0 x1 B f o
  · match a with
    | ⟨0, _⟩ => rfl

end Cert.ReferenceIdeal.RefValue
end
-- ==== Proof.lean ====
/-
  The kernel computes, for a batch of 256 rows x of 512 shifts × 16 filters and weights W of 512 shifts × 16
  filters × 32 outputs,
      out[b, o] = max (Σ_f (max_s x[b, s, f] · W[s, f, o]) + bias[o]) 0,
  taking the maximum over the shifts tile by tile (8 tiles of 64) into a running maximum that starts at -∞, over
  a grid of 2 batch tiles × 8 shift tiles; the reference takes the maximum over all 512 shifts at once. On the
  extended reals the two are the same function: the supremum of a family indexed by s = 64·k + j is the supremum
  over k of the suprema over j, and -∞ is the unit of the maximum. Sum, bias and clamp are the same operations
  on both sides. Nothing here needs the inputs to be finite.

  Proof/Spec.lean states the function G and the order facts; Proof/Pieces.lean reads what one grid point leaves as
  pure terms; Proof/Payload.lean reads those terms at an index; Proof/Blocks.lean places each block in its array;
  Proof/Running.lean is the induction giving the scratch after each point; Proof/Whole.lean the kernel's result
  array and run; Proof/RefValue.lean the reference's result. The three frames are the generated runs; the
  idealization rewrote nothing, so `preserves` is trivial.
-/
import proofs.«160686_j77163382440516_2_alg».proof.Defs
import proofs.«160686_j77163382440516_2_alg».proof.Proof.Gen.Kernel
import proofs.«160686_j77163382440516_2_alg».proof.Proof.Gen.Kernel.Skeleton
import proofs.«160686_j77163382440516_2_alg».proof.Proof.Gen.Kernel.Launch
import proofs.«160686_j77163382440516_2_alg».proof.Proof.Gen.Kernel.Points
import proofs.«160686_j77163382440516_2_alg».proof.Proof.Gen.Kernel.Frame
import proofs.«160686_j77163382440516_2_alg».proof.Proof.Gen.KernelIdeal
import proofs.«160686_j77163382440516_2_alg».proof.Proof.Gen.KernelIdeal.Skeleton
import proofs.«160686_j77163382440516_2_alg».proof.Proof.Gen.KernelIdeal.Launch
import proofs.«160686_j77163382440516_2_alg».proof.Proof.Gen.KernelIdeal.Points
import proofs.«160686_j77163382440516_2_alg».proof.Proof.Gen.KernelIdeal.Frame
import proofs.«160686_j77163382440516_2_alg».proof.Proof.Gen.ReferenceIdeal
import proofs.«160686_j77163382440516_2_alg».proof.Proof.Gen.Pre_finite_inputs
import proofs.«160686_j77163382440516_2_alg».proof.Proof.Gen.KernelIdeal.Value
import proofs.«160686_j77163382440516_2_alg».proof.Proof.Gen.ReferenceIdeal.Run
import proofs.«160686_j77163382440516_2_alg».proof.Proof.Gen.ReferenceIdeal.Read
import proofs.«160686_j77163382440516_2_alg».proof.Proof.Whole
import proofs.«160686_j77163382440516_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at G of the reshaped inputs, the reshaped weights and the bias; the
    arguments agree, so the two results are equal entry by entry. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq,
    (hagree c).1, (hagree c).2.1, (hagree c).2.2]
  exact (Cert.KernelIdeal.Whole.result_args m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
